-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S40000x128 .f32) (main_arg1 : IVec S2x640000 32) (main_arg2 : FVec F S640000 .f32) (main_arg3 : FVec F S128x128 .f32) (main_arg4 : FVec F S128 .f32) (main_arg5 : FVec F S128x64 .f32) (main_arg6 : FVec F S64 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S8000x128 : Shape := ⟨2, ![8000, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S40000x64 : Shape := ⟨2, ![40000, 64]⟩
abbrev S8000x64 : Shape := ⟨2, ![8000, 64]⟩
abbrev S640000x64 : Shape := ⟨2, ![640000, 64]⟩
abbrev S1x64 : Shape := ⟨2, ![1, 64]⟩

abbrev nBuf : Space → Nat
  | .hbm => 49
  | .vmem => 20
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S40000x128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S640000x1, .f32⟩
  | .hbm, ⟨22, _⟩ => ⟨S640000x128, .f32⟩
  | .hbm, ⟨23, _⟩ => ⟨S640000x128, .f32⟩
  | .hbm, ⟨24, _⟩ => ⟨S_, .f32⟩
  | .hbm, ⟨25, _⟩ => ⟨S40000x128, .f32⟩
  | .hbm, ⟨26, _⟩ => ⟨S640000x1, .i32⟩
  | .hbm, ⟨27, _⟩ => ⟨S40000x128, .f32⟩
  | .hbm, ⟨28, _⟩ => ⟨S1x128, .f32⟩
  | .hbm, ⟨29, _⟩ => ⟨S40000x128, .f32⟩
  | .hbm, ⟨30, _⟩ => ⟨S40000x64, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x64, .f32⟩
  | .hbm, ⟨40, _⟩ => ⟨S640000x1, .f32⟩
  | .hbm, ⟨41, _⟩ => ⟨S640000x64, .f32⟩
  | .hbm, ⟨42, _⟩ => ⟨S640000x64, .f32⟩
  | .hbm, ⟨43, _⟩ => ⟨S_, .f32⟩
  | .hbm, ⟨44, _⟩ => ⟨S40000x64, .f32⟩
  | .hbm, ⟨45, _⟩ => ⟨S640000x1, .i32⟩
  | .hbm, ⟨46, _⟩ => ⟨S40000x64, .f32⟩
  | .hbm, ⟨47, _⟩ => ⟨S1x64, .f32⟩
  | .hbm, ⟨48, _⟩ => ⟨S40000x64, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S1x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S128x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S1x64, .f32⟩
  | .local _ .vmem, ⟨18, _⟩ => ⟨S8000x64, .f32⟩
  | .local _ .vmem, ⟨19, _⟩ => ⟨S8000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  shapeCasts_S128_S1x128 : S128.ShapeCasts S1x128
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S8000x64_S8000x64_0_0 : ∀ a, (![0, 0] : Fin 2 → Nat) a + S8000x64.size a ≤ S8000x64.size a
  h_S8000x64 : 0 < S8000x64.numel
  bcast_S640000x1_S640000x64_0_1 : S640000x1.BroadcastsInDim S640000x64 (![0, 1] : Fin 2 → Fin S640000x64.rank)
  bcast_S_S40000x64 : S_.BroadcastsInDim S40000x64 (![] : Fin 0 → Fin S40000x64.rank)
  shapeCasts_S64_S1x64 : S64.ShapeCasts S1x64
  shapeCasts_S8000x64_S8000x64 : S8000x64.ShapeCasts S8000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  dot_S8000x128_S128x128_S8000x128_1_0_0_1_n_n_wf : DotDims.WF S8000x128 S128x128 S8000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S8000x128_S128x64_S8000x64_1_0_0_1_n_n_wf : DotDims.WF S8000x128 S128x64 S8000x64 [1] [0] [0] [1] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S40000x128.size a
  hwx0_0 : ∀ i : grid0.Coords, EltTy.bits .f32 = 32 ∨ (Rect.block (s := S40000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S40000x128.size a
  hwx0_2 : ∀ i : grid0.Coords, EltTy.bits .f32 = 32 ∨ (Rect.block (s := S40000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S40000x128.size a
  hwx1_0 : ∀ i : grid1.Coords, EltTy.bits .f32 = 32 ∨ (Rect.block (s := S40000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S40000x128.size a
  hwx1_2 : ∀ i : grid1.Coords, EltTy.bits .f32 = 32 ∨ (Rect.block (s := S40000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S40000x128.size a
  hwx2_0 : ∀ i : grid2.Coords, EltTy.bits .f32 = 32 ∨ (Rect.block (s := S40000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S40000x64.size a
  hwx2_2 : ∀ i : grid2.Coords, EltTy.bits .f32 = 32 ∨ (Rect.block (s := S40000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S40000x64.size a
  hwx3_0 : ∀ i : grid3.Coords, EltTy.bits .f32 = 32 ∨ (Rect.block (s := S40000x64) S8000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S40000x64.size a
  hwx3_2 : ∀ i : grid3.Coords, EltTy.bits .f32 = 32 ∨ (Rect.block (s := S40000x64) S8000x64.size (cc3_transform_2 i) (hinb3_2 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v33) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S8000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S40000x64 : Shape := ⟨2, ![40000, 64]⟩
abbrev S640000x64 : Shape := ⟨2, ![640000, 64]⟩
abbrev S1x64 : Shape := ⟨2, ![1, 64]⟩

abbrev nBuf : Space → Nat
  | .hbm => 54
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S40000x128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S640000x1, .f32⟩
  | .hbm, ⟨22, _⟩ => ⟨S640000x128, .f32⟩
  | .hbm, ⟨23, _⟩ => ⟨S640000x128, .f32⟩
  | .hbm, ⟨24, _⟩ => ⟨S_, .f32⟩
  | .hbm, ⟨25, _⟩ => ⟨S40000x128, .f32⟩
  | .hbm, ⟨26, _⟩ => ⟨S640000x1, .i32⟩
  | .hbm, ⟨27, _⟩ => ⟨S40000x128, .f32⟩
  | .hbm, ⟨28, _⟩ => ⟨S1x128, .f32⟩
  | .hbm, ⟨29, _⟩ => ⟨S40000x128, .f32⟩
  | .hbm, ⟨30, _⟩ => ⟨S40000x128, .f32⟩
  | .hbm, ⟨31, _⟩ => ⟨S_, .f32⟩
  | .hbm, ⟨32, _⟩ => ⟨S40000x128, .f32⟩
  | .hbm, ⟨33, _⟩ => ⟨S40000x128, .f32⟩
  | .hbm, ⟨34, _⟩ => ⟨S40000x64, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x64, .f32⟩
  | .hbm, ⟨44, _⟩ => ⟨S640000x1, .f32⟩
  | .hbm, ⟨45, _⟩ => ⟨S640000x64, .f32⟩
  | .hbm, ⟨46, _⟩ => ⟨S640000x64, .f32⟩
  | .hbm, ⟨47, _⟩ => ⟨S_, .f32⟩
  | .hbm, ⟨48, _⟩ => ⟨S40000x64, .f32⟩
  | .hbm, ⟨49, _⟩ => ⟨S640000x1, .i32⟩
  | .hbm, ⟨50, _⟩ => ⟨S40000x64, .f32⟩
  | .hbm, ⟨51, _⟩ => ⟨S1x64, .f32⟩
  | .hbm, ⟨52, _⟩ => ⟨S40000x64, .f32⟩
  | .hbm, ⟨53, _⟩ => ⟨S40000x64, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S640000x1_S640000x64_0_1 : S640000x1.BroadcastsInDim S640000x64 (![0, 1] : Fin 2 → Fin S640000x64.rank)
  bcast_S_S40000x64 : S_.BroadcastsInDim S40000x64 (![] : Fin 0 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x64_S40000x64_1_0_0_1_n_n_wf : DotDims.WF S40000x128 S128x64 S40000x64 [1] [0] [0] [1] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf

class Facts : Prop extends Facts₀ where

variable [Facts]
-- ==== Proof.KernelRun.lean ====
/-
  The idealized kernel program's run with its result named.

  @main is seven segments: a stretch of host operations (the two rows of the edge list), the first
  matrix product, a stretch (gather the source rows, scale by the edge weight, add into the
  destination rows; reshape the bias), the bias-and-maximum pass, the second matrix product, the second
  such stretch, the last bias pass.  The buffer contents at the boundaries are the fold `W0 … W7`:
  a host stretch applies its operations, a region replaces each of its arrays by what its
  write-backs leave.  Every weakly fair execution terminates, and in the final memory every unscoped
  buffer of a core holds the last boundary's contents `W7`; so the result buffer holds `W7` there and
  each argument its launch contents.
-/
import proofs.«177800_j64364379898607_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every final memory has each
    unscoped buffer of each core at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The run with the result buffer named: it ends at the last boundary's contents there, and every
    argument at its launch contents. -/
theorem run_result : θ_run defs (onTc (τ := τ) (main (F := F))) ⟨m, fun _ => 0, ρ⟩ (fun r => ∀ c : Dev nD,
      r.2.mem ((c.tc : Thread nD τ).loc main_v35) = W7 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨h c _ (mem_uc main_v35 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)
    (run_boundary m ρ)

end Cert.KernelIdeal.Whole

end
-- ==== Proof.Layers.lean ====
/-
  What each stage of the two-layer graph convolution computes, as functions of whole arrays read index
  by index over the extended reals.

  Nodes are the 40000 rows.  A dense layer sends the feature row of a node through a weight matrix: entry
  (r, c) of the result is the sum over k of feature (r, k) times weight (k, c).  A bias pass adds to every
  row the one row of the bias, and the first layer then takes the maximum with zero.  Between a dense layer
  and its bias pass sits the message passing along the edges, which these definitions do not open.
-/
import Idealize.ShloMosaic.PureOps.Ideal
import Idealize.ShloMosaic.Lib.ValueIdx

noncomputable section

namespace Cert.Gcn

open Idealize.ShloMosaic Idealize.ShloMosaic.ValueIdx

/-- The first dense layer, 128 features to 128: entry (r, c) is the sum over k of x(r, k) · w(k, c). -/
def dense128 (x : FVec Ideal ⟨2, ![40000, 128]⟩ .f32) (w : FVec Ideal ⟨2, ![128, 128]⟩ .f32) :
    FVec Ideal ⟨2, ![40000, 128]⟩ .f32 :=
  fun i => ∑ k : Fin 128, x (ix2 (n0 := 40000) (n1 := 128) (i 0) k) * w (ix2 (n0 := 128) (n1 := 128) k (i 1))

/-- The second dense layer, 128 features to 64. -/
def dense64 (x : FVec Ideal ⟨2, ![40000, 128]⟩ .f32) (w : FVec Ideal ⟨2, ![128, 64]⟩ .f32) :
    FVec Ideal ⟨2, ![40000, 64]⟩ .f32 :=
  fun i => ∑ k : Fin 128, x (ix2 (n0 := 40000) (n1 := 128) (i 0) k) * w (ix2 (n0 := 128) (n1 := 64) k (i 1))

/-- The first layer's closing pass: add the bias row to every node's row, then the maximum with zero. -/
def biasMax128 (a : FVec Ideal ⟨2, ![40000, 128]⟩ .f32) (b : FVec Ideal ⟨2, ![1, 128]⟩ .f32) :
    FVec Ideal ⟨2, ![40000, 128]⟩ .f32 :=
  fun i => max (a i + b (ix2 (n0 := 1) (n1 := 128) 0 (i 1))) (FloatOps.ofBits (F := Ideal) .f32 0x00000000#32)

/-- The second layer's closing pass: add the bias row to every node's row. -/
def bias64 (a : FVec Ideal ⟨2, ![40000, 64]⟩ .f32) (b : FVec Ideal ⟨2, ![1, 64]⟩ .f32) :
    FVec Ideal ⟨2, ![40000, 64]⟩ .f32 :=
  fun i => a i + b (ix2 (n0 := 1) (n1 := 64) 0 (i 1))

end Cert.Gcn

end
-- ==== Proof.Edges.lean ====
/-
  Message passing along the edges, as one function.

  The edge list has two rows of 640000 node numbers: sources and destinations.  A source number below
  zero is wrapped by adding the node count.  Each edge takes the feature row of its source, scales it by
  the edge's weight, and the scaled rows are added into the rows of their destinations, starting from
  zero.  Both programs do this with the same host operations, so nothing here is opened: the functions
  below only name that chain, once for 128 features and once for 64, and name the bias vector laid out
  as one row.
-/
import proofs.«177800_j64364379898607_1_alg».proof.Proof.Gen.KernelIdeal
import Idealize.ShloMosaic.PureOps.Ideal

noncomputable section

namespace Cert.Gcn

open Cert.KernelIdeal Cert.KernelIdeal.Gen Idealize.ShloMosaic Idealize.ShloMosaic.TcCoe Idealize.SL.Sem

/-- The sources: row 0 of the edge list, as a vector of 640000 node numbers. -/
def sourceRow (ei : (⟨S2x640000, .i32⟩ : BufTy).Contents (Elt Ideal)) : (⟨S640000, .i32⟩ : BufTy).Contents (Elt Ideal) :=
  shapeCast _ (extractStridedSlice S1x640000 ![0, 0] ei slices_S2x640000_S1x640000_0_0) shapeCasts_S1x640000_S640000

/-- The destinations: row 1 of the edge list. -/
def targetRow (ei : (⟨S2x640000, .i32⟩ : BufTy).Contents (Elt Ideal)) : (⟨S640000, .i32⟩ : BufTy).Contents (Elt Ideal) :=
  shapeCast _ (extractStridedSlice S1x640000 ![1, 0] ei slices_S2x640000_S1x640000_1_0) shapeCasts_S1x640000_S640000

/-- The sources with negative numbers wrapped around by the node count, one per edge, as a column. -/
def wrappedSources (s : (⟨S640000, .i32⟩ : BufTy).Contents (Elt Ideal)) : (⟨S640000x1, .i32⟩ : BufTy).Contents (Elt Ideal) :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 40000#32))) s)

/-- Message passing on 128 features: gather the source rows of `h`, scale each by its edge weight, add
    into the destination rows from zero. -/
def pass128 (h : (⟨S40000x128, .f32⟩ : BufTy).Contents (Elt Ideal)) (s t : (⟨S640000, .i32⟩ : BufTy).Contents (Elt Ideal))
    (nrm : (⟨S640000, .f32⟩ : BufTy).Contents (Elt Ideal)) : (⟨S40000x128, .f32⟩ : BufTy).Contents (Elt Ideal) :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0 t)
    (mulf (Host.gather gather_S40000x128_S640000x1_S640000x128_1_0_n_n_0_1_1128 h (wrappedSources s))
      (broadcastInDim S640000x128 ![0, 1] bcast_S640000x1_S640000x128_0_1 (broadcastInDim S640000x1 ![0] bcast_S640000_S640000x1_0 nrm)))

/-- Message passing on 64 features. -/
def pass64 (h : (⟨S40000x64, .f32⟩ : BufTy).Contents (Elt Ideal)) (s t : (⟨S640000, .i32⟩ : BufTy).Contents (Elt Ideal))
    (nrm : (⟨S640000, .f32⟩ : BufTy).Contents (Elt Ideal)) : (⟨S40000x64, .f32⟩ : BufTy).Contents (Elt Ideal) :=
  Host.scatterAdd (F := Ideal) scatter_S40000x64_S640000x1_S640000x64_1_0_0_1
    (broadcastInDim S40000x64 ![] bcast_S_S40000x64 (constant (F := Ideal) S_ .f32 0x00000000#32))
    (broadcastInDim S640000x1 ![0] bcast_S640000_S640000x1_0 t)
    (mulf (Host.gather gather_S40000x64_S640000x1_S640000x64_1_0_n_n_0_1_164 h (wrappedSources s))
      (broadcastInDim S640000x64 ![0, 1] bcast_S640000x1_S640000x64_0_1 (broadcastInDim S640000x1 ![0] bcast_S640000_S640000x1_0 nrm)))

/-- The first bias vector laid out as one row of 128. -/
def biasRow128 (b : (⟨S128, .f32⟩ : BufTy).Contents (Elt Ideal)) : (⟨S1x128, .f32⟩ : BufTy).Contents (Elt Ideal) :=
  shapeCast _ b shapeCasts_S128_S1x128

/-- The second bias vector laid out as one row of 64. -/
def biasRow64 (b : (⟨S64, .f32⟩ : BufTy).Contents (Elt Ideal)) : (⟨S1x64, .f32⟩ : BufTy).Contents (Elt Ideal) :=
  shapeCast _ b shapeCasts_S64_S1x64

end Cert.Gcn

end
-- ==== Proof.Network.lean ====
/-
  The whole two-layer network as one function of its seven argument arrays: features, edge list, edge
  weights, and the two layers' weight matrices and bias vectors.

  Layer one: dense layer, message passing, bias and maximum with zero.  Layer two: dense layer, message
  passing, bias.
-/
import proofs.«177800_j64364379898607_1_alg».proof.Proof.Layers
import proofs.«177800_j64364379898607_1_alg».proof.Proof.Edges

noncomputable section

namespace Cert.Gcn

open Cert.KernelIdeal Idealize.ShloMosaic Idealize.ShloMosaic.TcCoe Idealize.SL.Sem

/-- The first layer's output: max(pass(x · w1) + b1, 0). -/
def layer1 (x : (⟨S40000x128, .f32⟩ : BufTy).Contents (Elt Ideal)) (ei : (⟨S2x640000, .i32⟩ : BufTy).Contents (Elt Ideal))
    (nrm : (⟨S640000, .f32⟩ : BufTy).Contents (Elt Ideal)) (w1 : (⟨S128x128, .f32⟩ : BufTy).Contents (Elt Ideal))
    (b1 : (⟨S128, .f32⟩ : BufTy).Contents (Elt Ideal)) : (⟨S40000x128, .f32⟩ : BufTy).Contents (Elt Ideal) :=
  biasMax128 (pass128 (dense128 x w1) (sourceRow ei) (targetRow ei) nrm) (biasRow128 b1)

/-- The network's output: pass(layer1 · w2) + b2. -/
def network (x : (⟨S40000x128, .f32⟩ : BufTy).Contents (Elt Ideal)) (ei : (⟨S2x640000, .i32⟩ : BufTy).Contents (Elt Ideal))
    (nrm : (⟨S640000, .f32⟩ : BufTy).Contents (Elt Ideal)) (w1 : (⟨S128x128, .f32⟩ : BufTy).Contents (Elt Ideal))
    (b1 : (⟨S128, .f32⟩ : BufTy).Contents (Elt Ideal)) (w2 : (⟨S128x64, .f32⟩ : BufTy).Contents (Elt Ideal))
    (b2 : (⟨S64, .f32⟩ : BufTy).Contents (Elt Ideal)) : (⟨S40000x64, .f32⟩ : BufTy).Contents (Elt Ideal) :=
  bias64 (pass64 (dense64 (layer1 x ei nrm w1 b1) w2) (sourceRow ei) (targetRow ei) nrm) (biasRow64 b2)

end Cert.Gcn

end
-- ==== Proof.Dense0.lean ====
/-
  The first dense layer, block by block.

  The region's grid has five points; point t stages rows 8000·t … 8000·t + 7999 of the feature array and
  the whole weight matrix, multiplies the two blocks into a zero accumulator, and writes the product back
  to the same rows of the result.  Rounding the operands to a shorter float format is the identity on
  extended reals, and a product into a zero accumulator is the plain sum over the contracted axis; so
  entry (p, q) of the block at point t is the sum over k of x(8000·t + p, k) · w(k, q), which is entry
  (8000·t + p, q) of the dense layer of the whole arrays.  The five blocks tile the result, so after the
  region the result array is the dense layer of the arrays the region was entered with.
-/
import proofs.«177800_j64364379898607_1_alg».proof.Proof.Gen.KernelIdeal.Frame
import proofs.«177800_j64364379898607_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen
open Idealize.ShloMosaic Idealize.ShloMosaic.TcCoe Idealize.SL.Sem Idealize.ShloMosaic.ValueIdx
open Idealize.ShloMosaic.Pipeline (Dat)

theorem zero_origin : (![0, 0] : Fin 2 → Nat) = fun _ => 0 := funext fun a => by fin_cases a <;> rfl

/-- The block product's left operand index at output (p, q) and contraction position k: row p. -/
theorem lhs_row (i : S8000x128.Idx) (u : dot_S8000x128_S128x128_S8000x128_1_0_0_1_n_n.contr.Idx) :
    (dot_S8000x128_S128x128_S8000x128_1_0_0_1_n_n.lhsIdx i u 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- … column k. -/
theorem lhs_col (i : S8000x128.Idx) (u : dot_S8000x128_S128x128_S8000x128_1_0_0_1_n_n.contr.Idx) :
    (dot_S8000x128_S128x128_S8000x128_1_0_0_1_n_n.lhsIdx i u 1).val = (u ⟨0, by decide⟩).val :=
  dot_S8000x128_S128x128_S8000x128_1_0_0_1_n_n.lhsIdx_val_of_single rfl i u
/-- The right operand index: row k … -/
theorem rhs_row (i : S8000x128.Idx) (u : dot_S8000x128_S128x128_S8000x128_1_0_0_1_n_n.contr.Idx) :
    (dot_S8000x128_S128x128_S8000x128_1_0_0_1_n_n.rhsIdx i u 0).val = (u ⟨0, by decide⟩).val :=
  dot_S8000x128_S128x128_S8000x128_1_0_0_1_n_n.rhsIdx_val_of_single rfl i u
/-- … column q. -/
theorem rhs_col (i : S8000x128.Idx) (u : dot_S8000x128_S128x128_S8000x128_1_0_0_1_n_n.contr.Idx) :
    (dot_S8000x128_S128x128_S8000x128_1_0_0_1_n_n.rhsIdx i u 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- What the body stores, at entry (p, q) of the block: the sum over k of the feature block at (p, k) times
    the weight at (k, q). -/
theorem product_apply (x0 : Vec Ideal S8000x128 .f32) (x1 : Vec Ideal S128x128 .f32) (i : S8000x128.Idx) :
    k0_pay1 x0 x1 i = ∑ k : Fin 128, x0 (ix2 (n0 := 8000) (n1 := 128) (i 0) k) * x1 (ix2 (n0 := 128) (n1 := 128) k (i 1)) := by
  unfold k0_pay1
  refine (Ideal.matmul_constant_zero_apply dot_S8000x128_S128x128_S8000x128_1_0_0_1_n_n none _ _ i).trans ?_
  rw [← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx i ((ValueIdx.contrEquiv1 dot_S8000x128_S128x128_S8000x128_1_0_0_1_n_n 128 rfl rfl).symm k) = ix2 (n0 := 8000) (n1 := 128) (i 0) k := funext fun a => Fin.ext (by
    match a with
    | ⟨0, _⟩ => exact lhs_row _ _
    | ⟨1, _⟩ => exact (lhs_col _ _).trans hk)
  have er : dot_S8000x128_S128x128_S8000x128_1_0_0_1_n_n.rhsIdx i ((ValueIdx.contrEquiv1 dot_S8000x128_S128x128_S8000x128_1_0_0_1_n_n 128 rfl rfl).symm k) = ix2 (n0 := 128) (n1 := 128) k (i 1) := funext fun a => Fin.ext (by
    match a with
    | ⟨0, _⟩ => exact (rhs_row _ _).trans hk
    | ⟨1, _⟩ => exact rhs_col _ _)
  rw [truncf_apply, truncf_apply, el, er]

variable (V : (c : Dev nD) → (b : Ref sig .tc) → Buf (Elt Ideal) ((c : Thread nD τ).loc b))

/-- The index maps over the grid: at point t the feature and result windows sit at block row t, column 0;
    the weight window at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the dense layer of the arrays the region was entered with. -/
theorem flushed_eq (c : Dev nD) (t : Fin cfg0.N) :
    (dat0 V c).flushed 2 t = ((cfg0.win 2).blk t).view.read (Elt Ideal) (Cert.Gcn.dense128 (V c main_arg0) (V c main_arg3)) := by
  show (cfg0.win 2).cut (grid0.coords t) ((dat0 V c).after 2 t) = _
  rw [after0_2]
  unfold out0_2
  rw [View.canon_unit_zero zero_origin]
  simp only [View.ld_unit_zero (S := S8000x128) zero_origin, View.ld_unit_zero (S := S128x128) zero_origin]
  obtain ⟨e0, e1, e2, e3, e4, e5⟩ := index_facts t
  funext j
  show k0_pay1 (iblk0 V c 0 t) (iblk0 V c 1 t) j = Cert.Gcn.dense128 (V c main_arg0) (V c main_arg3) (((cfg0.win 2).blk t).view.emb j)
  refine (product_apply (iblk0 V c 0 t) (iblk0 V c 1 t) j).trans ?_
  unfold Cert.Gcn.dense128
  refine Finset.sum_congr rfl fun k _ => ?_
  have hx : ((cfg0.win 0).blk t).view.emb (ix2 (n0 := 8000) (n1 := 128) (j 0) k)
      = ix2 (n0 := 40000) (n1 := 128) ((((cfg0.win 2).blk t).view.emb j) 0) k := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * k.val = k.val; omega
  have hw : ((cfg0.win 1).blk t).view.emb (ix2 (n0 := 128) (n1 := 128) k (j 1))
      = ix2 (n0 := 128) (n1 := 128) k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have rx : (iblk0 V c 0 t : Vec Ideal S8000x128 .f32) (ix2 (n0 := 8000) (n1 := 128) (j 0) k)
      = (V c main_arg0 : FVec Ideal S40000x128 .f32) (ix2 (n0 := 40000) (n1 := 128) ((((cfg0.win 2).blk t).view.emb j) 0) k) :=
    congrArg (V c main_arg0 : FVec Ideal S40000x128 .f32) hx
  have rw' : (iblk0 V c 1 t : Vec Ideal S128x128 .f32) (ix2 (n0 := 128) (n1 := 128) k (j 1))
      = (V c main_arg3 : FVec Ideal S128x128 .f32) (ix2 (n0 := 128) (n1 := 128) k ((((cfg0.win 2).blk t).view.emb j) 1)) :=
    congrArg (V c main_arg3 : FVec Ideal S128x128 .f32) hw
  exact congrArg₂ (· * ·) rx rw'

/-- An index of the result array is in point t's block iff each coordinate is in the block's range. -/
theorem mem_block (t : Fin cfg0.N) (i : S40000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v4).slice (win0_2.rect t)).set ↔ _
  rw [View.set_slice_whole, Rect.mem_set_unit]
  exact Iff.rfl

/-- Row r of the result lies in the block of point r / 8000. -/
theorem covered (i : S40000x128.Idx) : ∃ t : Fin cfg0.N, (cfg0.win 2).flush t = true ∧ i ∈ ((cfg0.win 2).blk t).view.set := by
  have hi0 : (i 0).val < 40000 := (i 0).isLt
  have hi1 : (i 1).val < 128 := (i 1).isLt
  have hN : cfg0.N = 5 := N_0
  refine ⟨⟨(i 0).val / 8000, by rw [hN]; omega⟩, flush0_2 _, ?_⟩
  rw [mem_block]
  obtain ⟨e0, e1, e2, e3, e4, e5⟩ := index_facts ⟨(i 0).val / 8000, by rw [hN]; omega⟩
  intro a
  match a with
  | ⟨0, _⟩ => show win0_2.index _ (0 : Fin 2) * 8000 ≤ (i 0).val ∧ (i 0).val < win0_2.index _ (0 : Fin 2) * 8000 + 8000; rw [e4]; show (i 0).val / 8000 * 8000 ≤ (i 0).val ∧ (i 0).val < (i 0).val / 8000 * 8000 + 8000; omega
  | ⟨1, _⟩ => show win0_2.index _ (1 : Fin 2) * 128 ≤ (i 1).val ∧ (i 1).val < win0_2.index _ (1 : Fin 2) * 128 + 128; rw [e5]; omega

/-- After the region the result array is the dense layer of the feature and weight arrays as entered. -/
theorem result_array (c : Dev nD) :
    (dat0 V c).arrAt 2 cfg0.N = Cert.Gcn.dense128 (V c main_arg0) (V c main_arg3) :=
  (dat0 V c).arrAt_eq_of_cover 2 _ (fun t _ => flushed_eq V c t) covered

end Cert.KernelIdeal.Dense0

end
-- ==== Proof.Bias1.lean ====
/-
  The first layer's closing pass, block by block.

  Point t of the five stages rows 8000·t … 8000·t + 7999 of the aggregated features and the one row of
  the bias; it adds the bias row to every row of the block, takes the maximum with zero, and writes the
  block back to the same rows of the result.  So entry (p, q) of the block at point t is
  max(a(8000·t + p, q) + b(0, q), 0), which is entry (8000·t + p, q) of the pass on the whole arrays, and
  the five blocks tile the result.
-/
import proofs.«177800_j64364379898607_1_alg».proof.Proof.Gen.KernelIdeal.Frame
import proofs.«177800_j64364379898607_1_alg».proof.Proof.Layers
import Idealize.ShloMosaic.Lib.Pipeline.Value
import Idealize.ShloMosaic.Lib.ValueIdx
import Idealize.ShloMosaic.Lib.ValueLayout

set_option maxRecDepth 16384

noncomputable section

namespace Cert.KernelIdeal.Bias1

open Cert.KernelIdeal Cert.KernelIdeal.Gen
open Idealize.ShloMosaic Idealize.ShloMosaic.TcCoe Idealize.SL.Sem Idealize.ShloMosaic.ValueIdx
open Idealize.ShloMosaic.Pipeline (Dat)

theorem zero_origin : (![0, 0] : Fin 2 → Nat) = fun _ => 0 := funext fun a => by fin_cases a <;> rfl

/-- What the body stores, at entry (p, q) of the block: the aggregated feature there plus the bias at
    column q, and the maximum of that with zero. -/
theorem pass_apply (x0 : Vec Ideal S8000x128 .f32) (x1 : Vec Ideal S1x128 .f32) (i : S8000x128.Idx) :
    k1_pay1 x0 x1 i = max (x0 i + x1 (ix2 (n0 := 1) (n1 := 128) 0 (i 1))) (FloatOps.ofBits (F := Ideal) .f32 0x00000000#32) := by
  obtain ⟨p, q, rfl⟩ : ∃ (p : Fin 8000) (q : Fin 128), i = ix2 p q := ⟨i 0, i 1, eq_ix2 i⟩
  unfold k1_pay1
  simp only [shapeCast_self]
  show max (x0 (ix2 p q) + broadcastTo S8000x128 x1 broadcasts_S1x128_S8000x128 (ix2 p q)) _ = _
  rw [broadcastTo_1b_ab_apply x1 broadcasts_S1x128_S8000x128 p q]
  rfl

variable (V : (c : Dev nD) → (b : Ref sig .tc) → Buf (Elt Ideal) ((c : Thread nD τ).loc b))

/-- The index maps over the grid: at point t the aggregated-feature and result windows sit at block row
    t, column 0; the bias window at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the pass on the arrays the region was entered with. -/
theorem flushed_eq (c : Dev nD) (t : Fin cfg1.N) :
    (dat1 V c).flushed 2 t = ((cfg1.win 2).blk t).view.read (Elt Ideal) (Cert.Gcn.biasMax128 (V c main_v17) (V c main_v18)) := by
  show (cfg1.win 2).cut (grid1.coords t) ((dat1 V c).after 2 t) = _
  rw [after1_2]
  unfold out1_2
  rw [View.canon_unit_zero zero_origin]
  simp only [View.ld_unit_zero (S := S8000x128) zero_origin, View.ld_unit_zero (S := S1x128) zero_origin]
  obtain ⟨e0, e1, e2, e3, e4, e5⟩ := index_facts t
  funext j
  show k1_pay1 (iblk1 V c 0 t) (iblk1 V c 1 t) j = Cert.Gcn.biasMax128 (V c main_v17) (V c main_v18) (((cfg1.win 2).blk t).view.emb j)
  refine (pass_apply (iblk1 V c 0 t) (iblk1 V c 1 t) j).trans ?_
  unfold Cert.Gcn.biasMax128
  have ha : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 128 + 1 * (j 1).val = win1_2.index t (1 : Fin 2) * 128 + 1 * (j 1).val; omega
  have hb : ((cfg1.win 1).blk t).view.emb (ix2 (n0 := 1) (n1 := 128) 0 (j 1))
      = ix2 (n0 := 1) (n1 := 128) 0 ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  have ra : (iblk1 V c 0 t : Vec Ideal S8000x128 .f32) j
      = (V c main_v17 : FVec Ideal S40000x128 .f32) (((cfg1.win 2).blk t).view.emb j) :=
    congrArg (V c main_v17 : FVec Ideal S40000x128 .f32) ha
  have rb : (iblk1 V c 1 t : Vec Ideal S1x128 .f32) (ix2 (n0 := 1) (n1 := 128) 0 (j 1))
      = (V c main_v18 : FVec Ideal S1x128 .f32) (ix2 (n0 := 1) (n1 := 128) 0 ((((cfg1.win 2).blk t).view.emb j) 1)) :=
    congrArg (V c main_v18 : FVec Ideal S1x128 .f32) hb
  exact congrArg₂ (fun u v => max (u + v) (FloatOps.ofBits (F := Ideal) .f32 0x00000000#32)) ra rb

/-- An index of the result array is in point t's block iff each coordinate is in the block's range. -/
theorem mem_block (t : Fin cfg1.N) (i : S40000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v19).slice (win1_2.rect t)).set ↔ _
  rw [View.set_slice_whole, Rect.mem_set_unit]
  exact Iff.rfl

/-- Row r of the result lies in the block of point r / 8000. -/
theorem covered (i : S40000x128.Idx) : ∃ t : Fin cfg1.N, (cfg1.win 2).flush t = true ∧ i ∈ ((cfg1.win 2).blk t).view.set := by
  have hi0 : (i 0).val < 40000 := (i 0).isLt
  have hi1 : (i 1).val < 128 := (i 1).isLt
  have hN : cfg1.N = 5 := N_1
  refine ⟨⟨(i 0).val / 8000, by rw [hN]; omega⟩, flush1_2 _, ?_⟩
  rw [mem_block]
  obtain ⟨e0, e1, e2, e3, e4, e5⟩ := index_facts ⟨(i 0).val / 8000, by rw [hN]; omega⟩
  intro a
  match a with
  | ⟨0, _⟩ => show win1_2.index _ (0 : Fin 2) * 8000 ≤ (i 0).val ∧ (i 0).val < win1_2.index _ (0 : Fin 2) * 8000 + 8000; rw [e4]; show (i 0).val / 8000 * 8000 ≤ (i 0).val ∧ (i 0).val < (i 0).val / 8000 * 8000 + 8000; omega
  | ⟨1, _⟩ => show win1_2.index _ (1 : Fin 2) * 128 ≤ (i 1).val ∧ (i 1).val < win1_2.index _ (1 : Fin 2) * 128 + 128; rw [e5]; omega

/-- After the region the result array is the pass on the aggregated features and the bias row as entered. -/
theorem result_array (c : Dev nD) :
    (dat1 V c).arrAt 2 cfg1.N = Cert.Gcn.biasMax128 (V c main_v17) (V c main_v18) :=
  (dat1 V c).arrAt_eq_of_cover 2 _ (fun t _ => flushed_eq V c t) covered

end Cert.KernelIdeal.Bias1

end
-- ==== Proof.Dense2.lean ====
/-
  The second dense layer, block by block.

  The region's grid has five points; point t stages rows 8000·t … 8000·t + 7999 of the first layer's output and
  the whole second weight matrix, multiplies the two blocks into a zero accumulator, and writes the product back
  to the same rows of the result.  Rounding the operands to a shorter float format is the identity on
  extended reals, and a product into a zero accumulator is the plain sum over the contracted axis; so
  entry (p, q) of the block at point t is the sum over k of x(8000·t + p, k) · w(k, q), which is entry
  (8000·t + p, q) of the dense layer of the whole arrays.  The five blocks tile the result, so after the
  region the result array is the dense layer of the arrays the region was entered with.
-/
import proofs.«177800_j64364379898607_1_alg».proof.Proof.Gen.KernelIdeal.Frame
import proofs.«177800_j64364379898607_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem Idealize.ShloMosaic.ValueIdx
open Idealize.ShloMosaic.Pipeline (Dat)

theorem zero_origin : (![0, 0] : Fin 2 → Nat) = fun _ => 0 := funext fun a => by fin_cases a <;> rfl

/-- The block product's left operand index at output (p, q) and contraction position k: row p. -/
theorem lhs_row (i : S8000x64.Idx) (u : dot_S8000x128_S128x64_S8000x64_1_0_0_1_n_n.contr.Idx) :
    (dot_S8000x128_S128x64_S8000x64_1_0_0_1_n_n.lhsIdx i u 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
/-- … column k. -/
theorem lhs_col (i : S8000x64.Idx) (u : dot_S8000x128_S128x64_S8000x64_1_0_0_1_n_n.contr.Idx) :
    (dot_S8000x128_S128x64_S8000x64_1_0_0_1_n_n.lhsIdx i u 1).val = (u ⟨0, by decide⟩).val :=
  dot_S8000x128_S128x64_S8000x64_1_0_0_1_n_n.lhsIdx_val_of_single rfl i u
/-- The right operand index: row k … -/
theorem rhs_row (i : S8000x64.Idx) (u : dot_S8000x128_S128x64_S8000x64_1_0_0_1_n_n.contr.Idx) :
    (dot_S8000x128_S128x64_S8000x64_1_0_0_1_n_n.rhsIdx i u 0).val = (u ⟨0, by decide⟩).val :=
  dot_S8000x128_S128x64_S8000x64_1_0_0_1_n_n.rhsIdx_val_of_single rfl i u
/-- … column q. -/
theorem rhs_col (i : S8000x64.Idx) (u : dot_S8000x128_S128x64_S8000x64_1_0_0_1_n_n.contr.Idx) :
    (dot_S8000x128_S128x64_S8000x64_1_0_0_1_n_n.rhsIdx i u 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- What the body stores, at entry (p, q) of the block: the sum over k of the feature block at (p, k) times
    the weight at (k, q). -/
theorem product_apply (x0 : Vec Ideal S8000x128 .f32) (x1 : Vec Ideal S128x64 .f32) (i : S8000x64.Idx) :
    k2_pay1 x0 x1 i = ∑ k : Fin 128, x0 (ix2 (n0 := 8000) (n1 := 128) (i 0) k) * x1 (ix2 (n0 := 128) (n1 := 64) k (i 1)) := by
  unfold k2_pay1
  refine (Ideal.matmul_constant_zero_apply dot_S8000x128_S128x64_S8000x64_1_0_0_1_n_n none _ _ i).trans ?_
  rw [← Equiv.sum_comp (ValueIdx.contrEquiv1 dot_S8000x128_S128x64_S8000x64_1_0_0_1_n_n 128 rfl rfl).symm]
  refine Finset.sum_congr rfl fun k _ => ?_
  have hk := ValueIdx.contrEquiv1_symm_val dot_S8000x128_S128x64_S8000x64_1_0_0_1_n_n 128 rfl rfl k
  have el : dot_S8000x128_S128x64_S8000x64_1_0_0_1_n_n.lhsIdx i ((ValueIdx.contrEquiv1 dot_S8000x128_S128x64_S8000x64_1_0_0_1_n_n 128 rfl rfl).symm k) = ix2 (n0 := 8000) (n1 := 128) (i 0) k := funext fun a => Fin.ext (by
    match a with
    | ⟨0, _⟩ => exact lhs_row _ _
    | ⟨1, _⟩ => exact (lhs_col _ _).trans hk)
  have er : dot_S8000x128_S128x64_S8000x64_1_0_0_1_n_n.rhsIdx i ((ValueIdx.contrEquiv1 dot_S8000x128_S128x64_S8000x64_1_0_0_1_n_n 128 rfl rfl).symm k) = ix2 (n0 := 128) (n1 := 64) k (i 1) := funext fun a => Fin.ext (by
    match a with
    | ⟨0, _⟩ => exact (rhs_row _ _).trans hk
    | ⟨1, _⟩ => exact rhs_col _ _)
  rw [truncf_apply, truncf_apply, el, er, shapeCast_self]

variable (V : (c : Dev nD) → (b : Ref sig .tc) → Buf (Elt Ideal) ((c : Thread nD τ).loc b))

/-- The index maps over the grid: at point t the feature and result windows sit at block row t, column 0;
    the weight window at block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the dense layer of the arrays the region was entered with. -/
theorem flushed_eq (c : Dev nD) (t : Fin cfg2.N) :
    (dat2 V c).flushed 2 t = ((cfg2.win 2).blk t).view.read (Elt Ideal) (Cert.Gcn.dense64 (V c main_v19) (V c main_arg5)) := by
  show (cfg2.win 2).cut (grid2.coords t) ((dat2 V c).after 2 t) = _
  rw [after2_2]
  unfold out2_2
  rw [View.canon_unit_zero zero_origin]
  simp only [View.ld_unit_zero (S := S8000x128) zero_origin, View.ld_unit_zero (S := S128x64) zero_origin]
  obtain ⟨e0, e1, e2, e3, e4, e5⟩ := index_facts t
  funext j
  show k2_pay1 (iblk2 V c 0 t) (iblk2 V c 1 t) j = Cert.Gcn.dense64 (V c main_v19) (V c main_arg5) (((cfg2.win 2).blk t).view.emb j)
  refine (product_apply (iblk2 V c 0 t) (iblk2 V c 1 t) j).trans ?_
  unfold Cert.Gcn.dense64
  refine Finset.sum_congr rfl fun k _ => ?_
  have hx : ((cfg2.win 0).blk t).view.emb (ix2 (n0 := 8000) (n1 := 128) (j 0) k)
      = ix2 (n0 := 40000) (n1 := 128) ((((cfg2.win 2).blk t).view.emb j) 0) k := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 128 + 1 * k.val = k.val; omega
  have hw : ((cfg2.win 1).blk t).view.emb (ix2 (n0 := 128) (n1 := 64) k (j 1))
      = ix2 (n0 := 128) (n1 := 64) k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  have rx : (iblk2 V c 0 t : Vec Ideal S8000x128 .f32) (ix2 (n0 := 8000) (n1 := 128) (j 0) k)
      = (V c main_v19 : FVec Ideal S40000x128 .f32) (ix2 (n0 := 40000) (n1 := 128) ((((cfg2.win 2).blk t).view.emb j) 0) k) :=
    congrArg (V c main_v19 : FVec Ideal S40000x128 .f32) hx
  have rw' : (iblk2 V c 1 t : Vec Ideal S128x64 .f32) (ix2 (n0 := 128) (n1 := 64) k (j 1))
      = (V c main_arg5 : FVec Ideal S128x64 .f32) (ix2 (n0 := 128) (n1 := 64) k ((((cfg2.win 2).blk t).view.emb j) 1)) :=
    congrArg (V c main_arg5 : FVec Ideal S128x64 .f32) hw
  exact congrArg₂ (· * ·) rx rw'

/-- An index of the result array is in point t's block iff each coordinate is in the block's range. -/
theorem mem_block (t : Fin cfg2.N) (i : S40000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v20).slice (win2_2.rect t)).set ↔ _
  rw [View.set_slice_whole, Rect.mem_set_unit]
  exact Iff.rfl

/-- Row r of the result lies in the block of point r / 8000. -/
theorem covered (i : S40000x64.Idx) : ∃ t : Fin cfg2.N, (cfg2.win 2).flush t = true ∧ i ∈ ((cfg2.win 2).blk t).view.set := by
  have hi0 : (i 0).val < 40000 := (i 0).isLt
  have hi1 : (i 1).val < 64 := (i 1).isLt
  have hN : cfg2.N = 5 := N_2
  refine ⟨⟨(i 0).val / 8000, by rw [hN]; omega⟩, flush2_2 _, ?_⟩
  rw [mem_block]
  obtain ⟨e0, e1, e2, e3, e4, e5⟩ := index_facts ⟨(i 0).val / 8000, by rw [hN]; omega⟩
  intro a
  match a with
  | ⟨0, _⟩ => show win2_2.index _ (0 : Fin 2) * 8000 ≤ (i 0).val ∧ (i 0).val < win2_2.index _ (0 : Fin 2) * 8000 + 8000; rw [e4]; show (i 0).val / 8000 * 8000 ≤ (i 0).val ∧ (i 0).val < (i 0).val / 8000 * 8000 + 8000; omega
  | ⟨1, _⟩ => show win2_2.index _ (1 : Fin 2) * 64 ≤ (i 1).val ∧ (i 1).val < win2_2.index _ (1 : Fin 2) * 64 + 64; rw [e5]; omega

/-- After the region the result array is the second dense layer of the first layer's output and the second weight matrix as entered. -/
theorem result_array (c : Dev nD) :
    (dat2 V c).arrAt 2 cfg2.N = Cert.Gcn.dense64 (V c main_v19) (V c main_arg5) :=
  (dat2 V c).arrAt_eq_of_cover 2 _ (fun t _ => flushed_eq V c t) covered

end Cert.KernelIdeal.Dense2

end
-- ==== Proof.Bias3.lean ====
/-
  The second layer's closing pass, block by block.

  Point t of the five stages rows 8000·t … 8000·t + 7999 of the aggregated features and the one row of
  the bias; it adds the bias row to every row of the block and writes the block back to the same rows of
  the result.  So entry (p, q) of the block at point t is a(8000·t + p, q) + b(0, q), which is entry
  (8000·t + p, q) of the pass on the whole arrays, and the five blocks tile the result.
-/
import proofs.«177800_j64364379898607_1_alg».proof.Proof.Gen.KernelIdeal.Frame
import proofs.«177800_j64364379898607_1_alg».proof.Proof.Layers
import Idealize.ShloMosaic.Lib.Pipeline.Value
import Idealize.ShloMosaic.Lib.ValueIdx
import Idealize.ShloMosaic.Lib.ValueLayout

set_option maxRecDepth 16384

noncomputable section

namespace Cert.KernelIdeal.Bias3

open Cert.KernelIdeal Cert.KernelIdeal.Gen
open Idealize.ShloMosaic Idealize.ShloMosaic.TcCoe Idealize.SL.Sem Idealize.ShloMosaic.ValueIdx
open Idealize.ShloMosaic.Pipeline (Dat)

theorem zero_origin : (![0, 0] : Fin 2 → Nat) = fun _ => 0 := funext fun a => by fin_cases a <;> rfl

/-- What the body stores, at entry (p, q) of the block: the aggregated feature there plus the bias at
    column q. -/
theorem pass_apply (x0 : Vec Ideal S8000x64 .f32) (x1 : Vec Ideal S1x64 .f32) (i : S8000x64.Idx) :
    k3_pay1 x0 x1 i = x0 i + x1 (ix2 (n0 := 1) (n1 := 64) 0 (i 1)) := by
  obtain ⟨p, q, rfl⟩ : ∃ (p : Fin 8000) (q : Fin 64), i = ix2 p q := ⟨i 0, i 1, eq_ix2 i⟩
  unfold k3_pay1
  simp only [shapeCast_self]
  show x0 (ix2 p q) + broadcastTo S8000x64 x1 broadcasts_S1x64_S8000x64 (ix2 p q) = _
  rw [broadcastTo_1b_ab_apply x1 broadcasts_S1x64_S8000x64 p q]

variable (V : (c : Dev nD) → (b : Ref sig .tc) → Buf (Elt Ideal) ((c : Thread nD τ).loc b))

/-- The index maps over the grid: at point t the aggregated-feature and result windows sit at block row
    t, column 0; the bias window at block (0, 0). -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the pass on the arrays the region was entered with. -/
theorem flushed_eq (c : Dev nD) (t : Fin cfg3.N) :
    (dat3 V c).flushed 2 t = ((cfg3.win 2).blk t).view.read (Elt Ideal) (Cert.Gcn.bias64 (V c main_v33) (V c main_v34)) := by
  show (cfg3.win 2).cut (grid3.coords t) ((dat3 V c).after 2 t) = _
  rw [after3_2]
  unfold out3_2
  rw [View.canon_unit_zero zero_origin]
  simp only [View.ld_unit_zero (S := S8000x64) zero_origin, View.ld_unit_zero (S := S1x64) zero_origin]
  obtain ⟨e0, e1, e2, e3, e4, e5⟩ := index_facts t
  funext j
  show k3_pay1 (iblk3 V c 0 t) (iblk3 V c 1 t) j = Cert.Gcn.bias64 (V c main_v33) (V c main_v34) (((cfg3.win 2).blk t).view.emb j)
  refine (pass_apply (iblk3 V c 0 t) (iblk3 V c 1 t) j).trans ?_
  unfold Cert.Gcn.bias64
  have ha : ((cfg3.win 0).blk t).view.emb j = ((cfg3.win 2).blk t).view.emb j := by
    funext a; apply Fin.ext
    match a with
    | ⟨0, _⟩ => show win3_0.index t (0 : Fin 2) * 8000 + 1 * (j 0).val = win3_2.index t (0 : Fin 2) * 8000 + 1 * (j 0).val; omega
    | ⟨1, _⟩ => show win3_0.index t (1 : Fin 2) * 64 + 1 * (j 1).val = win3_2.index t (1 : Fin 2) * 64 + 1 * (j 1).val; omega
  have hb : ((cfg3.win 1).blk t).view.emb (ix2 (n0 := 1) (n1 := 64) 0 (j 1))
      = ix2 (n0 := 1) (n1 := 64) 0 ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  have ra : (iblk3 V c 0 t : Vec Ideal S8000x64 .f32) j
      = (V c main_v33 : FVec Ideal S40000x64 .f32) (((cfg3.win 2).blk t).view.emb j) :=
    congrArg (V c main_v33 : FVec Ideal S40000x64 .f32) ha
  have rb : (iblk3 V c 1 t : Vec Ideal S1x64 .f32) (ix2 (n0 := 1) (n1 := 64) 0 (j 1))
      = (V c main_v34 : FVec Ideal S1x64 .f32) (ix2 (n0 := 1) (n1 := 64) 0 ((((cfg3.win 2).blk t).view.emb j) 1)) :=
    congrArg (V c main_v34 : FVec Ideal S1x64 .f32) hb
  exact congrArg₂ (· + ·) ra rb

/-- An index of the result array is in point t's block iff each coordinate is in the block's range. -/
theorem mem_block (t : Fin cfg3.N) (i : S40000x64.Idx) :
    i ∈ ((cfg3.win 2).blk t).view.set ↔ ∀ a : Fin 2, win3_2.index t a * S8000x64.size a ≤ (i a).val ∧ (i a).val < win3_2.index t a * S8000x64.size a + S8000x64.size a := by
  show i ∈ ((View.whole main_v35).slice (win3_2.rect t)).set ↔ _
  rw [View.set_slice_whole, Rect.mem_set_unit]
  exact Iff.rfl

/-- Row r of the result lies in the block of point r / 8000. -/
theorem covered (i : S40000x64.Idx) : ∃ t : Fin cfg3.N, (cfg3.win 2).flush t = true ∧ i ∈ ((cfg3.win 2).blk t).view.set := by
  have hi0 : (i 0).val < 40000 := (i 0).isLt
  have hi1 : (i 1).val < 64 := (i 1).isLt
  have hN : cfg3.N = 5 := N_3
  refine ⟨⟨(i 0).val / 8000, by rw [hN]; omega⟩, flush3_2 _, ?_⟩
  rw [mem_block]
  obtain ⟨e0, e1, e2, e3, e4, e5⟩ := index_facts ⟨(i 0).val / 8000, by rw [hN]; omega⟩
  intro a
  match a with
  | ⟨0, _⟩ => show win3_2.index _ (0 : Fin 2) * 8000 ≤ (i 0).val ∧ (i 0).val < win3_2.index _ (0 : Fin 2) * 8000 + 8000; rw [e4]; show (i 0).val / 8000 * 8000 ≤ (i 0).val ∧ (i 0).val < (i 0).val / 8000 * 8000 + 8000; omega
  | ⟨1, _⟩ => show win3_2.index _ (1 : Fin 2) * 64 ≤ (i 1).val ∧ (i 1).val < win3_2.index _ (1 : Fin 2) * 64 + 64; rw [e5]; omega

/-- After the region the result array is the second pass on the second aggregated features and the second bias row as entered. -/
theorem result_array (c : Dev nD) :
    (dat3 V c).arrAt 2 cfg3.N = Cert.Gcn.bias64 (V c main_v33) (V c main_v34) :=
  (dat3 V c).arrAt_eq_of_cover 2 _ (fun t _ => flushed_eq V c t) covered

end Cert.KernelIdeal.Bias3

end
-- ==== Proof.Fold.lean ====
/-
  The boundary contents of the idealized kernel program, walked from the launch to the return.

  A stretch of host operations changes only the buffers it writes; read at one of those, the fold is the
  operations' own composition over the contents before the stretch.  A region changes only its result
  array, which ends at the layer's function of the region's input arrays as the region found them (the four
  region modules).  Walking the seven segments in order: the first region finds the launch features and
  weights, so its result is the first dense layer; the second stretch gathers, scales and adds that along
  the edges and lays the bias out as a row; the second region adds the bias and takes the maximum with zero;
  the third region multiplies by the second weight matrix; the third stretch passes messages again; the last
  region adds the second bias.  The result buffer therefore ends at the network's function of the seven
  launch arrays.
-/
import proofs.«177800_j64364379898607_1_alg».proof.Proof.Gen.KernelIdeal.Frame
import proofs.«177800_j64364379898607_1_alg».proof.Proof.Network
import proofs.«177800_j64364379898607_1_alg».proof.Proof.Dense0
import proofs.«177800_j64364379898607_1_alg».proof.Proof.Bias1
import proofs.«177800_j64364379898607_1_alg».proof.Proof.Dense2
import proofs.«177800_j64364379898607_1_alg».proof.Proof.Bias3
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

/-- No operation of the named stretch writes the buffer in question: each operation's one result buffer
    is a different reference. -/
local macro "untouched_by" ops:ident : term => `(List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## Each stretch, read at the buffers a later region or stretch reads -/

section Stretches

variable (X : Valuation τ sig (Elt Ideal))

/-- After the first stretch the source vector is row 0 of the edge list. -/
theorem sources_after0 : StableHlo.after hostOps0 X (Proc.devRef .tc main_v1) = Cert.Gcn.sourceRow (X (Proc.devRef .tc main_arg1)) := by
  dsimp only [hostOps0]; after_results; rfl
/-- … and the destination vector row 1. -/
theorem targets_after0 : StableHlo.after hostOps0 X (Proc.devRef .tc main_v3) = Cert.Gcn.targetRow (X (Proc.devRef .tc main_arg1)) := by
  dsimp only [hostOps0]; after_results; rfl

/-- After the second stretch the aggregated features are the messages passed over the first region's result. -/
theorem aggregated_after1 : StableHlo.after hostOps1 X (Proc.devRef .tc main_v17)
    = Cert.Gcn.pass128 (X (Proc.devRef .tc main_v4)) (X (Proc.devRef .tc main_v1)) (X (Proc.devRef .tc main_v3)) (X (Proc.devRef .tc main_arg2)) := by
  dsimp only [hostOps1]; after_results; rfl
/-- … and the first bias is laid out as a row. -/
theorem biasrow_after1 : StableHlo.after hostOps1 X (Proc.devRef .tc main_v18) = Cert.Gcn.biasRow128 (X (Proc.devRef .tc main_arg4)) := by
  dsimp only [hostOps1]; after_results; rfl

/-- After the third stretch the aggregated features are the messages passed over the third region's result. -/
theorem aggregated_after3 : StableHlo.after hostOps3 X (Proc.devRef .tc main_v33)
    = Cert.Gcn.pass64 (X (Proc.devRef .tc main_v20)) (X (Proc.devRef .tc main_v1)) (X (Proc.devRef .tc main_v3)) (X (Proc.devRef .tc main_arg2)) := by
  dsimp only [hostOps3]; after_results; rfl
/-- … and the second bias is laid out as a row. -/
theorem biasrow_after3 : StableHlo.after hostOps3 X (Proc.devRef .tc main_v34) = Cert.Gcn.biasRow64 (X (Proc.devRef .tc main_arg6)) := by
  dsimp only [hostOps3]; after_results; rfl

end Stretches

/-! ## The walk -/

variable (m : (ℓ : Loc nD τ sig) → Buf (Elt Ideal) ℓ) (ρ : Dev nD → PrngReg) (c : Dev nD)

/-- The first region is entered with the launch features … -/
theorem entry0_features : V1 m ρ c main_arg0 = m ((c.tc : Thread nD τ).loc main_arg0) :=
  StableHlo.after_of_forall_not_mem (b := Proc.devRef .tc main_arg0) _ _ (untouched_by hostOps0)
/-- … and the launch weights. -/
theorem entry0_weights : V1 m ρ c main_arg3 = m ((c.tc : Thread nD τ).loc main_arg3) :=
  StableHlo.after_of_forall_not_mem (b := Proc.devRef .tc main_arg3) _ _ (untouched_by hostOps0)

/-- At the first region's exit its result array is the first dense layer of the launch arrays. -/
theorem exit0 : W2 m ρ c (Proc.devRef .tc main_v4)
    = Cert.Gcn.dense128 (m ((c.tc : Thread nD τ).loc main_arg0)) (m ((c.tc : Thread nD τ).loc main_arg3)) := by
  refine (W2_arr m ρ c 2).trans ?_
  rw [Dense0.result_array (V1 m ρ) c, entry0_features m ρ c, entry0_weights m ρ c]

/-- The source vector at the first region's exit. -/
theorem sources2 : W2 m ρ c (Proc.devRef .tc main_v1) = Cert.Gcn.sourceRow (m ((c.tc : Thread nD τ).loc main_arg1)) :=
  (W2_of_ne m ρ c main_v1 (by decide)).trans (sources_after0 (W0 m ρ c))
/-- The destination vector at the first region's exit. -/
theorem targets2 : W2 m ρ c (Proc.devRef .tc main_v3) = Cert.Gcn.targetRow (m ((c.tc : Thread nD τ).loc main_arg1)) :=
  (W2_of_ne m ρ c main_v3 (by decide)).trans (targets_after0 (W0 m ρ c))
/-- The edge weights at the first region's exit. -/
theorem weights2 : W2 m ρ c (Proc.devRef .tc main_arg2) = m ((c.tc : Thread nD τ).loc main_arg2) :=
  (W2_of_ne m ρ c main_arg2 (by decide)).trans
    (StableHlo.after_of_forall_not_mem (b := Proc.devRef .tc main_arg2) _ _ (untouched_by hostOps0))
/-- The first bias at the first region's exit. -/
theorem bias2 : W2 m ρ c (Proc.devRef .tc main_arg4) = m ((c.tc : Thread nD τ).loc main_arg4) :=
  (W2_of_ne m ρ c main_arg4 (by decide)).trans
    (StableHlo.after_of_forall_not_mem (b := Proc.devRef .tc main_arg4) _ _ (untouched_by hostOps0))

/-- The second region is entered with the messages passed over the first dense layer … -/
theorem entry1_aggregated : V3 m ρ c main_v17
    = Cert.Gcn.pass128 (Cert.Gcn.dense128 (m ((c.tc : Thread nD τ).loc main_arg0)) (m ((c.tc : Thread nD τ).loc main_arg3)))
        (Cert.Gcn.sourceRow (m ((c.tc : Thread nD τ).loc main_arg1))) (Cert.Gcn.targetRow (m ((c.tc : Thread nD τ).loc main_arg1)))
        (m ((c.tc : Thread nD τ).loc main_arg2)) := by
  refine (aggregated_after1 (W2 m ρ c)).trans ?_
  rw [exit0 m ρ c, sources2 m ρ c, targets2 m ρ c, weights2 m ρ c]
/-- … and the first bias as a row. -/
theorem entry1_bias : V3 m ρ c main_v18 = Cert.Gcn.biasRow128 (m ((c.tc : Thread nD τ).loc main_arg4)) := by
  refine (biasrow_after1 (W2 m ρ c)).trans ?_
  rw [bias2 m ρ c]

/-- At the second region's exit its result array is the first layer's output. -/
theorem exit1 : W4 m ρ c (Proc.devRef .tc main_v19)
    = Cert.Gcn.layer1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (W4_arr m ρ c 2).trans ?_
  rw [Bias1.result_array (V3 m ρ) c, entry1_aggregated m ρ c, entry1_bias m ρ c]
  rfl

/-- A buffer the second stretch does not write and the second region does not own keeps, at that region's
    exit, what it held at the first region's exit. -/
theorem sources4 : W4 m ρ c (Proc.devRef .tc main_v1) = Cert.Gcn.sourceRow (m ((c.tc : Thread nD τ).loc main_arg1)) :=
  (W4_of_ne m ρ c main_v1 (by decide)).trans
    ((StableHlo.after_of_forall_not_mem (b := Proc.devRef .tc main_v1) _ _ (untouched_by hostOps1)).trans (sources2 m ρ c))
theorem targets4 : W4 m ρ c (Proc.devRef .tc main_v3) = Cert.Gcn.targetRow (m ((c.tc : Thread nD τ).loc main_arg1)) :=
  (W4_of_ne m ρ c main_v3 (by decide)).trans
    ((StableHlo.after_of_forall_not_mem (b := Proc.devRef .tc main_v3) _ _ (untouched_by hostOps1)).trans (targets2 m ρ c))
theorem weights4 : W4 m ρ c (Proc.devRef .tc main_arg2) = m ((c.tc : Thread nD τ).loc main_arg2) :=
  (W4_of_ne m ρ c main_arg2 (by decide)).trans
    ((StableHlo.after_of_forall_not_mem (b := Proc.devRef .tc main_arg2) _ _ (untouched_by hostOps1)).trans (weights2 m ρ c))
theorem second_weights4 : W4 m ρ c (Proc.devRef .tc main_arg5) = m ((c.tc : Thread nD τ).loc main_arg5) :=
  (W4_of_ne m ρ c main_arg5 (by decide)).trans
    ((StableHlo.after_of_forall_not_mem (b := Proc.devRef .tc main_arg5) _ _ (untouched_by hostOps1)).trans
      ((W2_of_ne m ρ c main_arg5 (by decide)).trans
        (StableHlo.after_of_forall_not_mem (b := Proc.devRef .tc main_arg5) _ _ (untouched_by hostOps0))))
theorem second_bias4 : W4 m ρ c (Proc.devRef .tc main_arg6) = m ((c.tc : Thread nD τ).loc main_arg6) :=
  (W4_of_ne m ρ c main_arg6 (by decide)).trans
    ((StableHlo.after_of_forall_not_mem (b := Proc.devRef .tc main_arg6) _ _ (untouched_by hostOps1)).trans
      ((W2_of_ne m ρ c main_arg6 (by decide)).trans
        (StableHlo.after_of_forall_not_mem (b := Proc.devRef .tc main_arg6) _ _ (untouched_by hostOps0))))

/-- At the third region's exit its result array is the second dense layer of the first layer's output. -/
theorem exit2 : W5 m ρ c (Proc.devRef .tc main_v20)
    = Cert.Gcn.dense64 (Cert.Gcn.layer1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) (m ((c.tc : Thread nD τ).loc main_arg5)) := by
  refine (W5_arr m ρ c 2).trans ?_
  rw [Dense2.result_array (V4 m ρ) c]
  show Cert.Gcn.dense64 (W4 m ρ c (Proc.devRef .tc main_v19)) (W4 m ρ c (Proc.devRef .tc main_arg5)) = _
  rw [exit1 m ρ c, second_weights4 m ρ c]

/-- The last region is entered with the messages passed over the second dense layer and the second bias
    as a row; at its exit the result buffer is the network's output. -/
theorem exit3 : W7 m ρ c (Proc.devRef .tc main_v35)
    = Cert.Gcn.network (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  refine (W7_arr m ρ c 2).trans ?_
  rw [Bias3.result_array (V6 m ρ) c]
  have hagg : V6 m ρ c main_v33 = Cert.Gcn.pass64 (W5 m ρ c (Proc.devRef .tc main_v20)) (W5 m ρ c (Proc.devRef .tc main_v1))
      (W5 m ρ c (Proc.devRef .tc main_v3)) (W5 m ρ c (Proc.devRef .tc main_arg2)) := aggregated_after3 (W5 m ρ c)
  have hrow : V6 m ρ c main_v34 = Cert.Gcn.biasRow64 (W5 m ρ c (Proc.devRef .tc main_arg6)) := biasrow_after3 (W5 m ρ c)
  rw [hagg, hrow, exit2 m ρ c, W5_of_ne m ρ c main_v1 (by decide), sources4 m ρ c, W5_of_ne m ρ c main_v3 (by decide), targets4 m ρ c,
    W5_of_ne m ρ c main_arg2 (by decide), weights4 m ρ c, W5_of_ne m ρ c main_arg6 (by decide), second_bias4 m ρ c]
  rfl

end Cert.KernelIdeal.Whole

end
-- ==== Proof.RefValue.lean ====
/-
  The reference's result is the network's function of its arguments.

  Stage by stage over the reference's own operations: its first matrix product, read at an index, is the sum
  over k of x(r, k) · w1(k, c) — the first dense layer; its gather, scale and scatter-add are the
  message-passing chain verbatim; adding the bias broadcast over the rows and taking the maximum with a
  zero array is the first closing pass, the bias row read at column c being the bias vector at c; and the
  same three steps again for the second layer, without the maximum.
-/
import proofs.«177800_j64364379898607_1_alg».proof.Proof.Gen.ReferenceIdeal.Read
import proofs.«177800_j64364379898607_1_alg».proof.Proof.Network
import Idealize.ShloMosaic.Lib.ValueIdx
import Idealize.ShloMosaic.Lib.ValueLayout

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The first bias laid out as a row, read at column q, is the bias vector at q. -/
theorem biasRow128_apply (b : (⟨S128, .f32⟩ : BufTy).Contents (Elt Ideal)) (q : Fin 128) :
    Cert.Gcn.biasRow128 b (ix2 (n0 := 1) (n1 := 128) 0 q) = b (ix1 q) := by
  unfold Cert.Gcn.biasRow128
  exact shapeCast_a_1a_apply b _ 0 q

/-- The second bias laid out as a row, read at column q, is the bias vector at q. -/
theorem biasRow64_apply (b : (⟨S64, .f32⟩ : BufTy).Contents (Elt Ideal)) (q : Fin 64) :
    Cert.Gcn.biasRow64 b (ix2 (n0 := 1) (n1 := 64) 0 q) = b (ix1 q) := by
  unfold Cert.Gcn.biasRow64
  exact shapeCast_a_1a_apply b _ 0 q

/-- Adding to every row an array whose every row is the row `b`, then the maximum with an array that is zero
    everywhere, is the first closing pass with bias row `b`. -/
theorem addMax_rows (a v z : FVec Ideal ⟨2, ![40000, 128]⟩ .f32) (b : FVec Ideal ⟨2, ![1, 128]⟩ .f32)
    (hv : ∀ i, v i = b (ix2 (n0 := 1) (n1 := 128) 0 (i 1)))
    (hz : ∀ i, z i = FloatOps.ofBits (F := Ideal) .f32 0x00000000#32) :
    maximumf (addf a v) z = Cert.Gcn.biasMax128 a b := by
  funext i
  unfold Cert.Gcn.biasMax128
  rw [maximumf_apply, addf_apply, hv i, hz i]

/-- Adding to every row an array whose every row is the row `b` is the second closing pass with bias row `b`. -/
theorem add_rows (a v : FVec Ideal ⟨2, ![40000, 64]⟩ .f32) (b : FVec Ideal ⟨2, ![1, 64]⟩ .f32)
    (hv : ∀ i, v i = b (ix2 (n0 := 1) (n1 := 64) 0 (i 1))) :
    addf a v = Cert.Gcn.bias64 a b := by
  funext i
  unfold Cert.Gcn.bias64
  rw [addf_apply, hv i]

variable (x0 : (⟨S40000x128, .f32⟩ : BufTy).Contents (Elt Ideal)) (x1 : (⟨S2x640000, .i32⟩ : BufTy).Contents (Elt Ideal))
  (x2 : (⟨S640000, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

/-- The reference's first matrix product is the first dense layer. -/
theorem dense1 : val_main_v4 (F := Ideal) x0 x3 = Cert.Gcn.dense128 x0 x3 := by
  funext i
  rw [val_main_v4_apply]
  unfold Cert.Gcn.dense128
  refine Finset.sum_congr rfl fun k _ => ?_
  have el : lidx_main_v4 i k = ix2 (n0 := 40000) (n1 := 128) (i 0) k := funext fun a => by
    match a with
    | ⟨0, _⟩ => rfl
    | ⟨1, _⟩ => rfl
  have er : ridx_main_v4 i k = ix2 (n0 := 128) (n1 := 128) k (i 1) := funext fun a => by
    match a with
    | ⟨0, _⟩ => rfl
    | ⟨1, _⟩ => rfl
  rw [el, er]

/-- The reference's first gather, scale and scatter-add are the message passing over its first product. -/
theorem passing1 : val_main_v17 (F := Ideal) x0 x1 x2 x3
    = Cert.Gcn.pass128 (val_main_v4 (F := Ideal) x0 x3) (Cert.Gcn.sourceRow x1) (Cert.Gcn.targetRow x1) x2 := rfl

/-- The reference's bias add and maximum with zero are the first closing pass. -/
theorem closing1 : val_main_v21 (F := Ideal) x0 x1 x2 x3 x4
    = Cert.Gcn.biasMax128 (val_main_v17 (F := Ideal) x0 x1 x2 x3) (Cert.Gcn.biasRow128 x4) := by
  unfold val_main_v21 val_main_v20
  refine addMax_rows _ _ _ _ (fun i => ?_) (fun i => ?_)
  · rw [biasRow128_apply x4 (i 1), val_main_v19_apply, val_main_v18_apply]
    refine congrArg x4 (funext fun d => ?_)
    match d with
    | ⟨0, _⟩ => rfl
  · rw [val_main_call0_v0_apply, val_main_call0_cst_apply]

/-- The reference's second matrix product is the second dense layer of its first layer's output. -/
theorem dense2 : val_main_v22 (F := Ideal) x0 x1 x2 x3 x4 x5
    = Cert.Gcn.dense64 (val_main_v21 (F := Ideal) x0 x1 x2 x3 x4) x5 := by
  funext i
  rw [val_main_v22_apply]
  unfold Cert.Gcn.dense64
  refine Finset.sum_congr rfl fun k _ => ?_
  have el : lidx_main_v22 i k = ix2 (n0 := 40000) (n1 := 128) (i 0) k := funext fun a => by
    match a with
    | ⟨0, _⟩ => rfl
    | ⟨1, _⟩ => rfl
  have er : ridx_main_v22 i k = ix2 (n0 := 128) (n1 := 64) k (i 1) := funext fun a => by
    match a with
    | ⟨0, _⟩ => rfl
    | ⟨1, _⟩ => rfl
  rw [el, er]

/-- The reference's second gather, scale and scatter-add are the message passing over its second product. -/
theorem passing2 : val_main_v35 (F := Ideal) x0 x1 x2 x3 x4 x5
    = Cert.Gcn.pass64 (val_main_v22 (F := Ideal) x0 x1 x2 x3 x4 x5) (Cert.Gcn.sourceRow x1) (Cert.Gcn.targetRow x1) x2 := rfl

/-- The reference's last bias add is the second closing pass. -/
theorem closing2 : val_main_v38 (F := Ideal) x0 x1 x2 x3 x4 x5 x6
    = Cert.Gcn.bias64 (val_main_v35 (F := Ideal) x0 x1 x2 x3 x4 x5) (Cert.Gcn.biasRow64 x6) := by
  unfold val_main_v38
  refine add_rows _ _ _ (fun i => ?_)
  rw [biasRow64_apply x6 (i 1), val_main_v37_apply, val_main_v36_apply]
  refine congrArg x6 (funext fun d => ?_)
  match d with
  | ⟨0, _⟩ => rfl

/-- The reference's result is the network's function of its seven arguments. -/
theorem value : val_main_v38 (F := Ideal) x0 x1 x2 x3 x4 x5 x6 = Cert.Gcn.network x0 x1 x2 x3 x4 x5 x6 := by
  rw [closing2, passing2, dense2, closing1, passing1, dense1]
  rfl

end Cert.ReferenceIdeal.RefValue

end
-- ==== Proof.lean ====
/-
  A two-layer graph convolution against its jnp reference, over the extended reals.

  Both programs compute, for each layer, a dense transform of the node features, message passing along the
  edges (gather the source rows, scale by the edge weight, add into the destination rows), and a bias add;
  the first layer ends with the maximum with zero.  The kernel program does the two dense transforms and the
  two bias passes as blocked regions of five row blocks each and leaves the message passing to the same host
  operations the reference uses.  At the ideal instance a change of float format is the identity and a
  blocked product into a zero accumulator is the plain sum, so each region's result array is the reference's
  stage of the same inputs, and the two results are one function of the seven arguments.  No law beyond the
  definitions of sum and maximum is used, so the precondition is never opened.

  The three frames: the two kernel programs' are the generated frames; the reference's is its run with the
  result dropped.  The idealization rewrote nothing, so there is nothing to preserve.
-/
import proofs.«177800_j64364379898607_1_alg».proof.Defs
import proofs.«177800_j64364379898607_1_alg».proof.Proof.Gen.Kernel
import proofs.«177800_j64364379898607_1_alg».proof.Proof.Gen.Kernel.Skeleton
import proofs.«177800_j64364379898607_1_alg».proof.Proof.Gen.Kernel.Launch
import proofs.«177800_j64364379898607_1_alg».proof.Proof.Gen.Kernel.Points
import proofs.«177800_j64364379898607_1_alg».proof.Proof.Gen.Kernel.Frame
import proofs.«177800_j64364379898607_1_alg».proof.Proof.Gen.KernelIdeal
import proofs.«177800_j64364379898607_1_alg».proof.Proof.Gen.KernelIdeal.Skeleton
import proofs.«177800_j64364379898607_1_alg».proof.Proof.Gen.KernelIdeal.Launch
import proofs.«177800_j64364379898607_1_alg».proof.Proof.Gen.KernelIdeal.Points
import proofs.«177800_j64364379898607_1_alg».proof.Proof.Gen.KernelIdeal.Frame
import proofs.«177800_j64364379898607_1_alg».proof.Proof.Gen.ReferenceIdeal
import proofs.«177800_j64364379898607_1_alg».proof.Proof.Gen.ReferenceIdeal.Run
import proofs.«177800_j64364379898607_1_alg».proof.Proof.Gen.ReferenceIdeal.Read
import proofs.«177800_j64364379898607_1_alg».proof.Proof.Gen.Pre_finite_inputs
import proofs.«177800_j64364379898607_1_alg».proof.Proof.KernelRun
import proofs.«177800_j64364379898607_1_alg».proof.Proof.Fold
import proofs.«177800_j64364379898607_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with their result at the network's function of
    the arguments. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Whole.exit3 m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [h0, h1, h2, h3, h4, h5, h6]
    exact (Cert.ReferenceIdeal.Read.val_main_v38_eq _ _ _ _ _ _ _).trans (Cert.ReferenceIdeal.RefValue.value _ _ _ _ _ _ _)

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
